-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x1 .f32) (main_arg11 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S256x256 .f32) (main_arg6 : FVec F S256 .f32) (main_arg7 : FVec F S256x256 .f32) (main_arg8 : FVec F S256x128 .f32) (main_arg9 : FVec F S128 .f32) (main_arg10 : FVec F S128x1 .f32) (main_arg11 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S128x128 : Shape := ⟨2, ![128, 128]⟩
abbrev S1x128 : Shape := ⟨2, ![1, 128]⟩
abbrev S2 : Shape := ⟨1, ![2]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S_, .f32⟩
  | .hbm, ⟨71, _⟩ => ⟨S128x128, .f32⟩
  | .hbm, ⟨72, _⟩ => ⟨S128, .f32⟩
  | .hbm, ⟨73, _⟩ => ⟨S_, .i32⟩
  | .hbm, ⟨74, _⟩ => ⟨S1, .i32⟩
  | .hbm, ⟨75, _⟩ => ⟨S128x128, .f32⟩
  | .hbm, ⟨76, _⟩ => ⟨S_, .f32⟩
  | .hbm, ⟨77, _⟩ => ⟨S1x128, .f32⟩
  | .hbm, ⟨78, _⟩ => ⟨S_, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S1x128, .f32⟩
  | .hbm, ⟨85, _⟩ => ⟨S1x128, .f32⟩
  | .hbm, ⟨86, _⟩ => ⟨S50000x128, .f32⟩
  | .hbm, ⟨87, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x1_0_0 : S50000x128.Slices ![0, 0] S50000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S128x128_S1_S128_0_1_1_0_wf : ScatterDims.WF S128x128 S1 S128 [0] [1] [1] 0
  scatter_S1x128_S2_S__n_01_01_0_wf : ScatterDims.WF S1x128 S2 S_ [] [0, 1] [0, 1] 0
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x1, .f32⟩
  | .hbm, ⟨92, _⟩ => ⟨S1x1, .f32⟩
  | .hbm, ⟨93, _⟩ => ⟨S50000x1, .f32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelResultRun.lean ====
/-
  The idealized kernel program's run with its RESULT named.

  The program is three grid launches among four stretches of host operations. Every weakly fair execution
  terminates without a fault, and in the final memory every buffer that outlives the launches holds what the
  last boundary's valuation `W7` assigns it: `W7` is the launch memory pushed through the first host
  stretch, the first launch's write-backs, the second stretch, and so on to the last stretch. Read at the
  argument buffers this is the frame; read at the result buffer it says the result array is `W7` there, which
  is what the value lemmas then open, boundary by boundary.
-/
import proofs.«178494_j71322226917532_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer then holds the
    last boundary's valuation at the result, and the twelve arguments are as launched. -/
theorem run : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.ResultRun

end
-- ==== Proof.Spec.lean ====
/-
  A two-layer mean-aggregation graph convolution followed by a two-stage scoring head, as functions of
  whole arrays over the extended reals.

  One convolution layer takes the node features `x` ([n, d]), their neighbour means `agg` ([n, d]), two
  weight matrices `Wl`, `Wr` ([d, h]) and a bias row `bl` ([h]) and returns, at node `p` and channel `q`,
      max ( Σ_t agg[p, t] · Wl[t, q]  +  Σ_t x[p, t] · Wr[t, q]  +  bl[q] ,  0 ).
  The three summands may be added in either of the two orders the programs use: addition of extended reals is
  commutative and associative (no finiteness is needed for that), `combineAt_other_order`.

  The head maps a feature matrix `H` ([n, d]) to one score per node,
      logistic ( Σ_t max( Σ_s H[p, s] · W1[s, t] + b1[t] , 0 ) · w2[t, 0]  +  b2[0] ),
  where logistic z = 1 / (1 + e^(−z)) with the extended reals' conventions at ±∞.

  The neighbour mean itself (a gather of rows by a source index, a sum of the gathered rows into their target
  rows, a division by the clipped in-degree) is the same operation on both sides of the comparison and enters
  only as a parameter: `network` takes the two layers' aggregation maps `A1`, `A2` as arguments.
-/
import Idealize.ShloMosaic.PureOps.Ideal
import Idealize.ShloMosaic.PureOps.Ideal.Laws
import Idealize.ShloMosaic.Lib.ValueIdx

noncomputable section

open scoped BigOperators

namespace Cert.SageSpec

open Idealize.ShloMosaic Idealize.ShloMosaic.ValueIdx

/-- An [a, b] array of extended reals. -/
abbrev Mat (a b : Nat) : Type := (⟨2, ![a, b]⟩ : Shape).Idx → EReal
/-- An [a] array of extended reals. -/
abbrev Row (a : Nat) : Type := (⟨1, ![a]⟩ : Shape).Idx → EReal

/-- Entry (p, q) of the product of an [a, k] matrix with a [k, b] matrix. -/
def dotAt {a k b : Nat} (X : Mat a k) (W : Mat k b) (p : Fin a) (q : Fin b) : EReal :=
  ∑ t : Fin k, X (ix2 p t) * W (ix2 t q)

/-- One convolution layer at node `p`, channel `q`: the neighbour mean through `Wl`, the node's own features
    through `Wr`, the bias, clipped below at zero. -/
def combineAt {n d h : Nat} (agg x : Mat n d) (Wl : Mat d h) (bl : Row h) (Wr : Mat d h) (p : Fin n) (q : Fin h) : EReal :=
  max (dotAt agg Wl p q + dotAt x Wr p q + bl (ix1 q)) 0

/-- The layer as a whole [n, h] array. -/
def combine {n d h : Nat} (agg x : Mat n d) (Wl : Mat d h) (bl : Row h) (Wr : Mat d h) : Mat n h :=
  fun i => combineAt (n := n) (h := h) agg x Wl bl Wr (i 0) (i 1)

theorem combine_ix2 {n d h : Nat} (agg x : Mat n d) (Wl : Mat d h) (bl : Row h) (Wr : Mat d h) (p : Fin n) (q : Fin h) :
    combine agg x Wl bl Wr (ix2 p q) = combineAt agg x Wl bl Wr p q := rfl

/-- Adding the bias before the second product instead of after it gives the same layer. -/
theorem combineAt_other_order {n d h : Nat} (agg x : Mat n d) (Wl : Mat d h) (bl : Row h) (Wr : Mat d h) (p : Fin n) (q : Fin h) :
    max (dotAt agg Wl p q + bl (ix1 q) + dotAt x Wr p q) 0 = combineAt agg x Wl bl Wr p q := by
  unfold combineAt
  rw [add_right_comm]

/-- The head's hidden activation at node `p`, unit `t`. -/
def hiddenAt {n d h : Nat} (H : Mat n d) (W1 : Mat d h) (b1 : Row h) (p : Fin n) (t : Fin h) : EReal :=
  max (dotAt H W1 p t + b1 (ix1 t)) 0

/-- The head's pre-activation score at node `p`. -/
def logitAt {n d h : Nat} (H : Mat n d) (W1 : Mat d h) (b1 : Row h) (w2 : Mat h 1) (b2 : Row 1) (p : Fin n) : EReal :=
  (∑ t : Fin h, hiddenAt H W1 b1 p t * w2 (ix2 t 0)) + b2 (ix1 0)

/-- The head's score at node `p`. -/
def scoreAt {n d h : Nat} (H : Mat n d) (W1 : Mat d h) (b1 : Row h) (w2 : Mat h 1) (b2 : Row 1) (p : Fin n) : EReal :=
  Ideal.logistic (logitAt H W1 b1 w2 b2 p)

/-- The scores as an [n, 1] array. -/
def score {n d h : Nat} (H : Mat n d) (W1 : Mat d h) (b1 : Row h) (w2 : Mat h 1) (b2 : Row 1) : Mat n 1 :=
  fun i => scoreAt (n := n) H W1 b1 w2 b2 (i 0)

theorem score_ix2 {n d h : Nat} (H : Mat n d) (W1 : Mat d h) (b1 : Row h) (w2 : Mat h 1) (b2 : Row 1) (p : Fin n) (z : Fin 1) :
    score H W1 b1 w2 b2 (ix2 p z) = scoreAt H W1 b1 w2 b2 p := rfl

/-- The head with a second weight of `g` columns and a second bias of `g` entries: a score per node and column. -/
def headAt {n d h g : Nat} (H : Mat n d) (W1 : Mat d h) (b1 : Row h) (W2 : Mat h g) (b2 : Row g) (p : Fin n) (j : Fin g) : EReal :=
  Ideal.logistic ((∑ t : Fin h, hiddenAt H W1 b1 p t * W2 (ix2 t j)) + b2 (ix1 j))

/-- The per-column head as an [n, g] array. -/
def head {n d h g : Nat} (H : Mat n d) (W1 : Mat d h) (b1 : Row h) (W2 : Mat h g) (b2 : Row g) : Mat n g :=
  fun i => headAt (n := n) (g := g) H W1 b1 W2 b2 (i 0) (i 1)

theorem head_ix2 {n d h g : Nat} (H : Mat n d) (W1 : Mat d h) (b1 : Row h) (W2 : Mat h g) (b2 : Row g) (p : Fin n) (j : Fin g) :
    head H W1 b1 W2 b2 (ix2 p j) = headAt H W1 b1 W2 b2 p j := rfl

/-- A column of the wide head that carries the one-column head's weight and bias is the one-column head's score. -/
theorem headAt_of_column {n d h g : Nat} (H : Mat n d) (W1 : Mat d h) (b1 : Row h) (W2 : Mat h g) (b2p : Row g)
    (w2 : Mat h 1) (b2 : Row 1) (j0 : Fin g) (hW : ∀ t : Fin h, W2 (ix2 t j0) = w2 (ix2 t 0)) (hb : b2p (ix1 j0) = b2 (ix1 0))
    (p : Fin n) : headAt H W1 b1 W2 b2p p j0 = scoreAt H W1 b1 w2 b2 p := by
  unfold headAt scoreAt logitAt
  rw [hb]
  exact congrArg (fun s => Ideal.logistic (s + b2 (ix1 0))) (Finset.sum_congr rfl fun t _ => by rw [hW t])

/-- The whole network: two layers over the aggregation maps `A1`, `A2`, then the head. -/
def network {n d h g : Nat} (A1 : Mat n d → Mat n d) (A2 : Mat n h → Mat n h)
    (x : Mat n d) (W1l : Mat d h) (b1l : Row h) (W1r : Mat d h) (W2l : Mat h h) (b2l : Row h) (W2r : Mat h h)
    (Wh1 : Mat h g) (bh1 : Row g) (Wh2 : Mat g 1) (bh2 : Row 1) : Mat n 1 :=
  let h1 := combine (A1 x) x W1l b1l W1r
  let h2 := combine (A2 h1) h1 W2l b2l W2r
  score h2 Wh1 bh1 Wh2 bh2

end Cert.SageSpec

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.BodyValue.lean ====
/-
  What each kernel body stores, as a function of the blocks it loads, at the exact instance.

  A combine body loads a [2000, d] block of neighbour means, the matching [2000, d] block of node features, the two
  [d, 256] weight matrices and the [1, 256] bias row. Narrowing to sixteen bits is the identity on extended reals, a
  product into a zero accumulator is the plain sum over the contracted axis, the bias row is repeated down the
  rows, and the clip is a maximum with zero: the stored [2000, 256] block is the layer `SageSpec.combine` of the loaded
  blocks. The head body is the same with one product, then a second product and the logistic: its stored
  [2000, 128] block holds, in column `j`, the logistic of the hidden activations against column `j` of the padded
  second weight plus entry `j` of the padded second bias.
-/
import proofs.«178494_j71322226917532_1_alg».proof.Proof.Gen.KernelIdeal.Skeleton
import proofs.«178494_j71322226917532_1_alg».proof.Proof.Spec
import proofs.«178494_j71322226917532_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.SageSpec

/-- A [1, h] array read as a row of length h. -/
def rowOf {h : Nat} (B : Mat 1 h) : Row h := fun q => B (ix2 0 (q 0))

theorem rowOf_ix1 {h : Nat} (B : Mat 1 h) (q : Fin h) : rowOf B (ix1 q) = B (ix2 0 q) := rfl

/-- The zero word is the real number zero. -/
theorem zero_word : (Scalar.ofBits (F := Ideal) .f32 0x00000000#32 : EReal) = 0 := Ideal.ofBits_zero_f32

/-- A [1, 256] row repeated down 2000 rows, read at (r, q). -/
theorem bcast_row256 (x : Vec Ideal S1x256 .f32) (r : Fin 2000) (q : Fin 256) :
    broadcastTo S2000x256 x broadcasts_S1x256_S2000x256 (ix2 r q) = x (ix2 0 q) :=
  broadcastTo_apply x broadcasts_S1x256_S2000x256 (ix2 r q) (ix2 0 q) (fun a => by
    match a with
    | ⟨0, _⟩ => rfl
    | ⟨1, _⟩ => rfl)

/-- The [2000, 128] × [128, 256] product into a zero accumulator, at entry (r, q). -/
theorem mm_128_256 {φ₁ φ₂ : FTy} (lhs : FVec Ideal S2000x128 φ₁) (rhs : FVec Ideal S128x256 φ₂) (r : Fin 2000) (q : Fin 256) :
    matmul dot_S2000x128_S128x256_S2000x256_1_0_0_1_n_n none lhs rhs (constant S2000x256 .f32 0x00000000#32) (ix2 r q)
      = ∑ k : Fin 128, lhs (ix2 r k) * rhs (ix2 k q) :=
  (Ideal.matmul_constant_zero_apply dot_S2000x128_S128x256_S2000x256_1_0_0_1_n_n none lhs rhs (ix2 r q)).trans
    (PlainDot.contraction_eq_sum dot_S2000x128_S128x256_S2000x256_1_0_0_1_n_n rfl rfl
      (fun _ _ => rfl) (fun _ _ => rfl) (fun _ _ => rfl) (fun _ _ => rfl) lhs rhs r q)

/-- The first combine body's stored block is the layer of its loaded blocks. -/
theorem k0_pay1_eq (x0 x1 : Vec Ideal S2000x128 .f32) (x2 x4 : Vec Ideal S128x256 .f32) (x3 : Vec Ideal S1x256 .f32) :
    k0_pay1 x0 x1 x2 x4 x3 = combine (n := 2000) (d := 128) (h := 256) x0 x1 x2 (rowOf x3) x4 := by
  funext j
  obtain ⟨r, q, rfl⟩ : ∃ (r : Fin 2000) (q : Fin 256), j = ix2 r q := ⟨j 0, j 1, eq_ix2 j⟩
  rw [combine_ix2]
  unfold k0_pay1 combineAt dotAt
  simp only [shapeCast_self]
  rw [maximumf_apply, addf_apply, addf_apply, mm_128_256, mm_128_256, bcast_row256, broadcast_apply, zero_word, rowOf_ix1]
  rfl

/-- The [2000, 256] × [256, 256] product into a zero accumulator, at entry (r, q). -/
theorem mm_256_256 {φ₁ φ₂ : FTy} (lhs : FVec Ideal S2000x256 φ₁) (rhs : FVec Ideal S256x256 φ₂) (r : Fin 2000) (q : Fin 256) :
    matmul dot_S2000x256_S256x256_S2000x256_1_0_0_1_n_n none lhs rhs (constant S2000x256 .f32 0x00000000#32) (ix2 r q)
      = ∑ k : Fin 256, lhs (ix2 r k) * rhs (ix2 k q) :=
  (Ideal.matmul_constant_zero_apply dot_S2000x256_S256x256_S2000x256_1_0_0_1_n_n none lhs rhs (ix2 r q)).trans
    (PlainDot.contraction_eq_sum dot_S2000x256_S256x256_S2000x256_1_0_0_1_n_n rfl rfl
      (fun _ _ => rfl) (fun _ _ => rfl) (fun _ _ => rfl) (fun _ _ => rfl) lhs rhs r q)

/-- The second combine body's stored block is the layer of its loaded blocks. -/
theorem k1_pay1_eq (x0 x1 : Vec Ideal S2000x256 .f32) (x2 x4 : Vec Ideal S256x256 .f32) (x3 : Vec Ideal S1x256 .f32) :
    k1_pay1 x0 x1 x2 x4 x3 = combine (n := 2000) (d := 256) (h := 256) x0 x1 x2 (rowOf x3) x4 := by
  funext j
  obtain ⟨r, q, rfl⟩ : ∃ (r : Fin 2000) (q : Fin 256), j = ix2 r q := ⟨j 0, j 1, eq_ix2 j⟩
  rw [combine_ix2]
  unfold k1_pay1 combineAt dotAt
  simp only [shapeCast_self]
  rw [maximumf_apply, addf_apply, addf_apply, mm_256_256, mm_256_256, bcast_row256, broadcast_apply, zero_word, rowOf_ix1]
  rfl

/-- A [1, 128] row repeated down 2000 rows, read at (r, q). -/
theorem bcast_row128 (x : Vec Ideal S1x128 .f32) (r : Fin 2000) (q : Fin 128) :
    broadcastTo S2000x128 x broadcasts_S1x128_S2000x128 (ix2 r q) = x (ix2 0 q) :=
  broadcastTo_apply x broadcasts_S1x128_S2000x128 (ix2 r q) (ix2 0 q) (fun a => by
    match a with
    | ⟨0, _⟩ => rfl
    | ⟨1, _⟩ => rfl)

/-- The [2000, 256] × [256, 128] product into a zero accumulator, at entry (r, q). -/
theorem mm_256_128 {φ₁ φ₂ : FTy} (lhs : FVec Ideal S2000x256 φ₁) (rhs : FVec Ideal S256x128 φ₂) (r : Fin 2000) (q : Fin 128) :
    matmul dot_S2000x256_S256x128_S2000x128_1_0_0_1_n_n none lhs rhs (constant S2000x128 .f32 0x00000000#32) (ix2 r q)
      = ∑ k : Fin 256, lhs (ix2 r k) * rhs (ix2 k q) :=
  (Ideal.matmul_constant_zero_apply dot_S2000x256_S256x128_S2000x128_1_0_0_1_n_n none lhs rhs (ix2 r q)).trans
    (PlainDot.contraction_eq_sum dot_S2000x256_S256x128_S2000x128_1_0_0_1_n_n rfl rfl
      (fun _ _ => rfl) (fun _ _ => rfl) (fun _ _ => rfl) (fun _ _ => rfl) lhs rhs r q)

/-- The [2000, 128] × [128, 128] product into a zero accumulator, at entry (r, q). -/
theorem mm_128_128 {φ₁ φ₂ : FTy} (lhs : FVec Ideal S2000x128 φ₁) (rhs : FVec Ideal S128x128 φ₂) (r : Fin 2000) (q : Fin 128) :
    matmul dot_S2000x128_S128x128_S2000x128_1_0_0_1_n_n none lhs rhs (constant S2000x128 .f32 0x00000000#32) (ix2 r q)
      = ∑ k : Fin 128, lhs (ix2 r k) * rhs (ix2 k q) :=
  (Ideal.matmul_constant_zero_apply dot_S2000x128_S128x128_S2000x128_1_0_0_1_n_n none lhs rhs (ix2 r q)).trans
    (PlainDot.contraction_eq_sum dot_S2000x128_S128x128_S2000x128_1_0_0_1_n_n rfl rfl
      (fun _ _ => rfl) (fun _ _ => rfl) (fun _ _ => rfl) (fun _ _ => rfl) lhs rhs r q)

/-- The head body's stored block is the per-column head of its loaded blocks. -/
theorem k2_pay1_eq (x0 : Vec Ideal S2000x256 .f32) (x1 : Vec Ideal S256x128 .f32) (x2 : Vec Ideal S1x128 .f32)
    (x3 : Vec Ideal S128x128 .f32) (x4 : Vec Ideal S1x128 .f32) :
    k2_pay1 x0 x1 x2 x3 x4 = head (n := 2000) (d := 256) (h := 128) (g := 128) x0 x1 (rowOf x2) x3 (rowOf x4) := by
  funext j
  obtain ⟨r, q, rfl⟩ : ∃ (r : Fin 2000) (q : Fin 128), j = ix2 r q := ⟨j 0, j 1, eq_ix2 j⟩
  rw [head_ix2]
  unfold k2_pay1 headAt hiddenAt dotAt
  simp only [shapeCast_self]
  show Ideal.logistic _ = _
  rw [addf_apply, mm_128_128, bcast_row128, rowOf_ix1]
  simp only [truncf_apply, maximumf_apply, addf_apply, mm_256_128, broadcast_apply, zero_word, rowOf_ix1]
  refine congrArg (fun s => Ideal.logistic (s + x4 (ix2 0 q))) (Finset.sum_congr rfl fun k _ => ?_)
  rw [bcast_row128]

end Cert.KernelIdeal.BodyValue

end
-- ==== Proof.RegionValue.lean ====
/-
  From blocks to arrays: what each grid launch leaves in its output array, as one function of the arrays it finds.

  Each launch walks 25 grid points. At point `t` the row-tiled windows hold rows [2000·t, 2000·t + 2000) of their
  arrays, the untiled windows (weights and bias rows) hold their whole arrays, and the body's stored block is
  written back to rows [2000·t, 2000·t + 2000) of the output. Since the body's block is the layer (or the head) of
  the loaded blocks, and the layer's row `p` only reads row `p` of the row-tiled inputs, what point `t` writes back
  is rows [2000·t, 2000·t + 2000) of the layer of the whole arrays. The 25 row bands tile all 50000 rows (row `p`
  is in band `p / 2000`), so after the launch the output array is the layer of the whole input arrays.
  Everything is stated at an arbitrary valuation `V` of the buffers at the launch's entry.
-/
import proofs.«178494_j71322226917532_1_alg».proof.Proof.Gen.KernelIdeal.Frame
import proofs.«178494_j71322226917532_1_alg».proof.Proof.BodyValue
import Idealize.ShloMosaic.Lib.Pipeline.Value

set_option maxRecDepth 16384

noncomputable section

open scoped BigOperators

namespace Cert.KernelIdeal.RegionValue

open Cert.KernelIdeal Cert.KernelIdeal.Gen Cert.KernelIdeal.BodyValue Cert.SageSpec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row `r` of band `T`. -/
def bandRow (T : Nat) (hT : T < 25) (r : Fin 2000) : Fin 50000 := ⟨T * 2000 + r.val, by have := r.isLt; omega⟩

/-- A layer's band: if the small inputs are rows of band `T` of the large ones (and the untiled inputs are the
    whole arrays), the small layer at row `r` is the large layer at row `r` of band `T`. -/
theorem combine_band {d : Nat} (A X : Mat 50000 d) (Wl Wr : Mat d 256) (B : Mat 1 256)
    (a x : Mat 2000 d) (wl wr : Mat d 256) (b : Mat 1 256) (T : Nat) (hT : T < 25)
    (ha : ∀ (r : Fin 2000) (k : Fin d), a (ix2 r k) = A (ix2 (bandRow T hT r) k))
    (hx : ∀ (r : Fin 2000) (k : Fin d), x (ix2 r k) = X (ix2 (bandRow T hT r) k))
    (hwl : ∀ (k : Fin d) (q : Fin 256), wl (ix2 k q) = Wl (ix2 k q))
    (hwr : ∀ (k : Fin d) (q : Fin 256), wr (ix2 k q) = Wr (ix2 k q))
    (hb : ∀ q : Fin 256, b (ix2 0 q) = B (ix2 0 q)) (r : Fin 2000) (q : Fin 256) :
    combine a x wl (rowOf b) wr (ix2 r q) = combine A X Wl (rowOf B) Wr (ix2 (bandRow T hT r) q) := by
  rw [combine_ix2, combine_ix2]
  unfold combineAt dotAt
  simp only [ha, hx, hwl, hwr, rowOf_ix1, hb]

/-- The head's band: the same for the per-column head. -/
theorem head_band (H : Mat 50000 256) (W1 : Mat 256 128) (B1 : Mat 1 128) (W2 : Mat 128 128) (B2 : Mat 1 128)
    (hh : Mat 2000 256) (w1 : Mat 256 128) (b1 : Mat 1 128) (w2 : Mat 128 128) (b2 : Mat 1 128) (T : Nat) (hT : T < 25)
    (h_h : ∀ (r : Fin 2000) (k : Fin 256), hh (ix2 r k) = H (ix2 (bandRow T hT r) k))
    (h_w1 : ∀ (k : Fin 256) (q : Fin 128), w1 (ix2 k q) = W1 (ix2 k q))
    (h_b1 : ∀ q : Fin 128, b1 (ix2 0 q) = B1 (ix2 0 q))
    (h_w2 : ∀ (k : Fin 128) (q : Fin 128), w2 (ix2 k q) = W2 (ix2 k q))
    (h_b2 : ∀ q : Fin 128, b2 (ix2 0 q) = B2 (ix2 0 q)) (r : Fin 2000) (q : Fin 128) :
    head hh w1 (rowOf b1) w2 (rowOf b2) (ix2 r q) = head H W1 (rowOf B1) W2 (rowOf B2) (ix2 (bandRow T hT r) q) := by
  rw [head_ix2, head_ix2]
  unfold headAt hiddenAt dotAt
  simp only [h_h, h_w1, h_w2, rowOf_ix1, h_b1, h_b2]

/-! ## The first launch -/

/-- The printed index maps of the first launch, decided over its 25 points: the row-tiled windows are at band `t`,
    column block 0; the untiled ones at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- The first launch's output as a function of the arrays at its entry. -/
def G0 (c : Dev nD) : Mat 50000 256 :=
  combine (n := 50000) (d := 128) (h := 256) (V c main_v22) (V c main_arg0) (V c main_arg2) (rowOf (V c main_v23)) (V c main_arg4)

/-- What point `t` of the first launch writes back is band `t` of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x256) zero_offsets, View.ld_unit_zero (S := S1x256) zero_offsets]
  rw [k0_pay1_eq]
  obtain ⟨e00, e01, e10, e11, e20, e21, e30, e31, e40, e41, e50, e51⟩ := idx0 t
  have hT : t.val < 25 := by have h : t.val < grid0.N := t.isLt; rw [N_0] at h; exact h
  have h_a : ∀ (r : Fin 2000) (k : Fin 128), iblk0 V c 0 t (ix2 r k) = V c main_v22 (ix2 (bandRow t.val hT r) k) := by
    intro r k
    show V c (Pipeline.arrRef spec0 0) (((cfg0.win 0).blk t).view.emb (ix2 r k)) = _
    refine congrArg (V c main_v22) (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * k.val = k.val; omega
  have h_x : ∀ (r : Fin 2000) (k : Fin 128), iblk0 V c 1 t (ix2 r k) = V c main_arg0 (ix2 (bandRow t.val hT r) k) := by
    intro r k
    show V c (Pipeline.arrRef spec0 1) (((cfg0.win 1).blk t).view.emb (ix2 r k)) = _
    refine congrArg (V c main_arg0) (funext fun a => Fin.ext ?_)
    match a with
    | ⟨0, _⟩ => show win0_1.index t (0 : Fin 2) * 2000 + 1 * r.val = t.val * 2000 + r.val; omega
    | ⟨1, _⟩ => show win0_1.index t (1 : Fin 2) * 128 + 1 * k.val = k.val; omega
  have h_wl : ∀ (k : Fin 128) (q : Fin 256), iblk0 V c 2 t (ix2 k q) = V c main_arg2 (ix2 k q) := by
    intro k q
    show V c (Pipeline.arrRef spec0 2) (((cfg0.win 2).blk t).view.emb (ix2 k q)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 256 + 1 * q.val = q.val; omega
  have h_b : ∀ q : Fin 256, iblk0 V c 3 t (ix2 0 q) = V c main_v23 (ix2 0 q) := by
    intro q
    show V c (Pipeline.arrRef spec0 3) (((cfg0.win 3).blk t).view.emb (ix2 0 q)) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  have h_wr : ∀ (k : Fin 128) (q : Fin 256), iblk0 V c 4 t (ix2 k q) = V c main_arg4 (ix2 k q) := by
    intro k q
    show V c (Pipeline.arrRef spec0 4) (((cfg0.win 4).blk t).view.emb (ix2 k q)) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 256 + 1 * q.val = q.val; omega
  funext j
  obtain ⟨r, q, rfl⟩ : ∃ (r : Fin 2000) (q : Fin 256), j = ix2 r q := ⟨j 0, j 1, eq_ix2 j⟩
  show combine (iblk0 V c 0 t) (iblk0 V c 1 t) (iblk0 V c 2 t) (rowOf (iblk0 V c 3 t)) (iblk0 V c 4 t) (ix2 r q)
    = G0 V c (((cfg0.win 5).blk t).view.emb (ix2 r q))
  have hemb : ((cfg0.win 5).blk t).view.emb (ix2 r q) = ix2 (bandRow t.val hT r) q := by
    funext a
    apply Fin.ext
    match a with
    | ⟨0, _⟩ => show win0_5.index t (0 : Fin 2) * 2000 + 1 * r.val = t.val * 2000 + r.val; omega
    | ⟨1, _⟩ => show win0_5.index t (1 : Fin 2) * 256 + 1 * q.val = q.val; omega
  rw [hemb]
  exact combine_band (V c main_v22) (V c main_arg0) (V c main_arg2) (V c main_arg4) (V c main_v23)
    (iblk0 V c 0 t) (iblk0 V c 1 t) (iblk0 V c 2 t) (iblk0 V c 4 t) (iblk0 V c 3 t) t.val hT h_a h_x h_wl h_wr h_b r q

/-- An index of the output array is in point `t`'s block iff each coordinate is in the block's range. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Row `p` of the output is in the band of point `p / 2000`: the bands cover the array. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < grid0.N := by rw [N_0]; omega
  obtain ⟨e00, e01, e10, e11, e20, e21, e30, e31, e40, e41, e50, e51⟩ := idx0 ⟨(i 0).val / 2000, hlt⟩
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e51]
    omega

/-- After the first launch its output array is that function of the arrays at its entry. -/
theorem final0 (c : Dev nD) : (dat0 V c).arrAt 5 cfg0.N = G0 V c :=
  (dat0 V c).arrAt_eq_of_cover 5 (G0 V c) (fun t _ => flushed0 V c t) (cover0)

/-! ## The second launch -/

/-- The printed index maps of the second launch, decided over its 25 points: the row-tiled windows are at band `t`,
    column block 0; the untiled ones at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- The second launch's output as a function of the arrays at its entry. -/
def G1 (c : Dev nD) : Mat 50000 256 :=
  combine (n := 50000) (d := 256) (h := 256) (V c main_v43) (V c main_v24) (V c main_arg5) (rowOf (V c main_v44)) (V c main_arg7)

/-- What point `t` of the second launch writes back is band `t` of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x256) zero_offsets, View.ld_unit_zero (S := S1x256) zero_offsets]
  rw [k1_pay1_eq]
  obtain ⟨e00, e01, e10, e11, e20, e21, e30, e31, e40, e41, e50, e51⟩ := idx1 t
  have hT : t.val < 25 := by have h : t.val < grid1.N := t.isLt; rw [N_1] at h; exact h
  have h_a : ∀ (r : Fin 2000) (k : Fin 256), iblk1 V c 0 t (ix2 r k) = V c main_v43 (ix2 (bandRow t.val hT r) k) := by
    intro r k
    show V c (Pipeline.arrRef spec1 0) (((cfg1.win 0).blk t).view.emb (ix2 r k)) = _
    refine congrArg (V c main_v43) (funext fun a => Fin.ext ?_)
    match a with
    | ⟨0, _⟩ => show win1_0.index t (0 : Fin 2) * 2000 + 1 * r.val = t.val * 2000 + r.val; omega
    | ⟨1, _⟩ => show win1_0.index t (1 : Fin 2) * 256 + 1 * k.val = k.val; omega
  have h_x : ∀ (r : Fin 2000) (k : Fin 256), iblk1 V c 1 t (ix2 r k) = V c main_v24 (ix2 (bandRow t.val hT r) k) := by
    intro r k
    show V c (Pipeline.arrRef spec1 1) (((cfg1.win 1).blk t).view.emb (ix2 r k)) = _
    refine congrArg (V c main_v24) (funext fun a => Fin.ext ?_)
    match a with
    | ⟨0, _⟩ => show win1_1.index t (0 : Fin 2) * 2000 + 1 * r.val = t.val * 2000 + r.val; omega
    | ⟨1, _⟩ => show win1_1.index t (1 : Fin 2) * 256 + 1 * k.val = k.val; omega
  have h_wl : ∀ (k : Fin 256) (q : Fin 256), iblk1 V c 2 t (ix2 k q) = V c main_arg5 (ix2 k q) := by
    intro k q
    show V c (Pipeline.arrRef spec1 2) (((cfg1.win 2).blk t).view.emb (ix2 k q)) = _
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 256 + 1 * q.val = q.val; omega
  have h_b : ∀ q : Fin 256, iblk1 V c 3 t (ix2 0 q) = V c main_v44 (ix2 0 q) := by
    intro q
    show V c (Pipeline.arrRef spec1 3) (((cfg1.win 3).blk t).view.emb (ix2 0 q)) = _
    refine congrArg (V c main_v44) (funext fun a => Fin.ext ?_)
    match a with
    | ⟨0, _⟩ => show win1_3.index t (0 : Fin 2) * 1 + 1 * 0 = 0; omega
    | ⟨1, _⟩ => show win1_3.index t (1 : Fin 2) * 256 + 1 * q.val = q.val; omega
  have h_wr : ∀ (k : Fin 256) (q : Fin 256), iblk1 V c 4 t (ix2 k q) = V c main_arg7 (ix2 k q) := by
    intro k q
    show V c (Pipeline.arrRef spec1 4) (((cfg1.win 4).blk t).view.emb (ix2 k q)) = _
    refine congrArg (V c main_arg7) (funext fun a => Fin.ext ?_)
    match a with
    | ⟨0, _⟩ => show win1_4.index t (0 : Fin 2) * 256 + 1 * k.val = k.val; omega
    | ⟨1, _⟩ => show win1_4.index t (1 : Fin 2) * 256 + 1 * q.val = q.val; omega
  funext j
  obtain ⟨r, q, rfl⟩ : ∃ (r : Fin 2000) (q : Fin 256), j = ix2 r q := ⟨j 0, j 1, eq_ix2 j⟩
  show combine (iblk1 V c 0 t) (iblk1 V c 1 t) (iblk1 V c 2 t) (rowOf (iblk1 V c 3 t)) (iblk1 V c 4 t) (ix2 r q)
    = G1 V c (((cfg1.win 5).blk t).view.emb (ix2 r q))
  have hemb : ((cfg1.win 5).blk t).view.emb (ix2 r q) = ix2 (bandRow t.val hT r) q := by
    funext a
    apply Fin.ext
    match a with
    | ⟨0, _⟩ => show win1_5.index t (0 : Fin 2) * 2000 + 1 * r.val = t.val * 2000 + r.val; omega
    | ⟨1, _⟩ => show win1_5.index t (1 : Fin 2) * 256 + 1 * q.val = q.val; omega
  rw [hemb]
  exact combine_band (V c main_v43) (V c main_v24) (V c main_arg5) (V c main_arg7) (V c main_v44)
    (iblk1 V c 0 t) (iblk1 V c 1 t) (iblk1 V c 2 t) (iblk1 V c 4 t) (iblk1 V c 3 t) t.val hT h_a h_x h_wl h_wr h_b r q

/-- An index of the output array is in point `t`'s block iff each coordinate is in the block's range. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v45).slice (win1_5.rect t)).set ↔ _
  rw [View.set_slice_whole, Rect.mem_set_unit]
  exact Iff.rfl

/-- Row `p` of the output is in the band of point `p / 2000`: the bands cover the array. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hlt : (i 0).val / 2000 < grid1.N := by rw [N_1]; omega
  obtain ⟨e00, e01, e10, e11, e20, e21, e30, e31, e40, e41, e50, e51⟩ := idx1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e51]
    omega

/-- After the second launch its output array is that function of the arrays at its entry. -/
theorem final1 (c : Dev nD) : (dat1 V c).arrAt 5 cfg1.N = G1 V c :=
  (dat1 V c).arrAt_eq_of_cover 5 (G1 V c) (fun t _ => flushed1 V c t) (cover1)

/-! ## The third launch -/

/-- The printed index maps of the third launch, decided over its 25 points: the row-tiled windows are at band `t`,
    column block 0; the untiled ones at block (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The third launch's output as a function of the arrays at its entry. -/
def G2 (c : Dev nD) : Mat 50000 128 :=
  head (n := 50000) (d := 256) (h := 128) (g := 128) (V c main_v45) (V c main_arg8) (rowOf (V c main_v56)) (V c main_v49) (rowOf (V c main_v55))

/-- What point `t` of the third launch writes back is band `t` of that function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x128) zero_offsets, View.ld_unit_zero (S := S1x128) zero_offsets, View.ld_unit_zero (S := S128x128) zero_offsets, View.ld_unit_zero (S := S2000x128) zero_offsets]
  rw [k2_pay1_eq]
  obtain ⟨e00, e01, e10, e11, e20, e21, e30, e31, e40, e41, e50, e51⟩ := idx2 t
  have hT : t.val < 25 := by have h : t.val < grid2.N := t.isLt; rw [N_2] at h; exact h
  have h_h : ∀ (r : Fin 2000) (k : Fin 256), iblk2 V c 0 t (ix2 r k) = V c main_v45 (ix2 (bandRow t.val hT r) k) := by
    intro r k
    show V c (Pipeline.arrRef spec2 0) (((cfg2.win 0).blk t).view.emb (ix2 r k)) = _
    refine congrArg (V c main_v45) (funext fun a => Fin.ext ?_)
    match a with
    | ⟨0, _⟩ => show win2_0.index t (0 : Fin 2) * 2000 + 1 * r.val = t.val * 2000 + r.val; omega
    | ⟨1, _⟩ => show win2_0.index t (1 : Fin 2) * 256 + 1 * k.val = k.val; omega
  have h_w1 : ∀ (k : Fin 256) (q : Fin 128), iblk2 V c 1 t (ix2 k q) = V c main_arg8 (ix2 k q) := by
    intro k q
    show V c (Pipeline.arrRef spec2 1) (((cfg2.win 1).blk t).view.emb (ix2 k q)) = _
    refine congrArg (V c main_arg8) (funext fun a => Fin.ext ?_)
    match a with
    | ⟨0, _⟩ => show win2_1.index t (0 : Fin 2) * 256 + 1 * k.val = k.val; omega
    | ⟨1, _⟩ => show win2_1.index t (1 : Fin 2) * 128 + 1 * q.val = q.val; omega
  have h_b1 : ∀ q : Fin 128, iblk2 V c 2 t (ix2 0 q) = V c main_v56 (ix2 0 q) := by
    intro q
    show V c (Pipeline.arrRef spec2 2) (((cfg2.win 2).blk t).view.emb (ix2 0 q)) = _
    refine congrArg (V c main_v56) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have h_w2 : ∀ (k : Fin 128) (q : Fin 128), iblk2 V c 3 t (ix2 k q) = V c main_v49 (ix2 k q) := by
    intro k q
    show V c (Pipeline.arrRef spec2 3) (((cfg2.win 3).blk t).view.emb (ix2 k q)) = _
    refine congrArg (V c main_v49) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have h_b2 : ∀ q : Fin 128, iblk2 V c 4 t (ix2 0 q) = V c main_v55 (ix2 0 q) := by
    intro q
    show V c (Pipeline.arrRef spec2 4) (((cfg2.win 4).blk t).view.emb (ix2 0 q)) = _
    refine congrArg (V c main_v55) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  funext j
  obtain ⟨r, q, rfl⟩ : ∃ (r : Fin 2000) (q : Fin 128), j = ix2 r q := ⟨j 0, j 1, eq_ix2 j⟩
  show head (iblk2 V c 0 t) (iblk2 V c 1 t) (rowOf (iblk2 V c 2 t)) (iblk2 V c 3 t) (rowOf (iblk2 V c 4 t)) (ix2 r q)
    = G2 V c (((cfg2.win 5).blk t).view.emb (ix2 r q))
  have hemb : ((cfg2.win 5).blk t).view.emb (ix2 r q) = ix2 (bandRow t.val hT r) q := by
    funext a
    apply Fin.ext
    match a with
    | ⟨0, _⟩ => show win2_5.index t (0 : Fin 2) * 2000 + 1 * r.val = t.val * 2000 + r.val; omega
    | ⟨1, _⟩ => show win2_5.index t (1 : Fin 2) * 128 + 1 * q.val = q.val; omega
  rw [hemb]
  exact head_band (V c main_v45) (V c main_arg8) (V c main_v56) (V c main_v49) (V c main_v55)
    (iblk2 V c 0 t) (iblk2 V c 1 t) (iblk2 V c 2 t) (iblk2 V c 3 t) (iblk2 V c 4 t) t.val hT h_h h_w1 h_b1 h_w2 h_b2 r q

/-- An index of the output array is in point `t`'s block iff each coordinate is in the block's range. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v57).slice (win2_5.rect t)).set ↔ _
  rw [View.set_slice_whole, Rect.mem_set_unit]
  exact Iff.rfl

/-- Row `p` of the output is in the band of point `p / 2000`: the bands cover the array. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hlt : (i 0).val / 2000 < grid2.N := by rw [N_2]; omega
  obtain ⟨e00, e01, e10, e11, e20, e21, e30, e31, e40, e41, e50, e51⟩ := idx2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [e51]
    omega

/-- After the third launch its output array is that function of the arrays at its entry. -/
theorem final2 (c : Dev nD) : (dat2 V c).arrAt 5 cfg2.N = G2 V c :=
  (dat2 V c).arrAt_eq_of_cover 5 (G2 V c) (fun t _ => flushed2 V c t) (cover2)

end Cert.KernelIdeal.RegionValue

end
-- ==== Proof.Aggregate.lean ====
/-
  The neighbour mean, named once.

  Both programs compute the mean of each node's in-neighbours with the same host operations: the edge list's first
  row gives each edge's source node (a negative index counted from the end), its second row the target node; the
  rows of the feature matrix are gathered by source, summed into their target rows, and each row is divided by
  its in-degree clipped below at one. Nothing about these operations is needed beyond their being the SAME
  function of the edge list and the feature matrix on both sides, so they are wrapped here, at the two feature
  widths that occur, and never opened.
-/
import proofs.«178494_j71322226917532_1_alg».proof.Proof.Gen.KernelIdeal
import Idealize.ShloMosaic.PureOps.Ideal

noncomputable section

namespace Cert.KernelIdeal.Aggregate

open Cert.KernelIdeal Cert.KernelIdeal.Facts₀ Idealize.ShloMosaic

/-- Each edge's source node. -/
def src (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Each edge's target node. -/
def dst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The source nodes as a column of row indices, a negative index counted from the end. -/
def srcCol (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The target nodes as a column of row indices. -/
def dstCol (d : (⟨S800000, .i32⟩ : BufTy).Contents (Elt Ideal)) : (⟨S800000x1, .i32⟩ : BufTy).Contents (Elt Ideal) :=
  broadcastInDim S800000x1 ![0] bcast_S800000_S800000x1_0 d

/-- Each node's in-degree, clipped below at one. -/
def degree (d : (⟨S800000, .i32⟩ : BufTy).Contents (Elt Ideal)) : (⟨S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32)) (dstCol d)
      (broadcastInDim S800000 ![] bcast_S_S800000 (constant (F := Ideal) S_ .f32 0x3F800000#32)))
    (broadcastInDim S50000 ![] bcast_S_S50000 (constant (F := Ideal) S_ .f32 0x3F800000#32))

/-- The neighbour mean of a 128-wide feature matrix. -/
def mean128 (s d : (⟨S800000, .i32⟩ : BufTy).Contents (Elt Ideal)) (x : (⟨S50000x128, .f32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (dstCol d)
      (Host.gather gather_S50000x128_S800000x1_S800000x128_1_0_n_n_0_1_1128 x (srcCol s)))
    (broadcastInDim S50000x128 ![0, 1] bcast_S50000x1_S50000x128_0_1 (broadcastInDim S50000x1 ![0] bcast_S50000_S50000x1_0 (degree d)))

/-- The neighbour mean of a 256-wide feature matrix. -/
def mean256 (s d : (⟨S800000, .i32⟩ : BufTy).Contents (Elt Ideal)) (x : (⟨S50000x256, .f32⟩ : BufTy).Contents (Elt Ideal)) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32)) (dstCol d)
      (Host.gather gather_S50000x256_S800000x1_S800000x256_1_0_n_n_0_1_1256 x (srcCol s)))
    (broadcastInDim S50000x256 ![0, 1] bcast_S50000x1_S50000x256_0_1 (broadcastInDim S50000x1 ![0] bcast_S50000_S50000x1_0 (degree d)))

end Cert.KernelIdeal.Aggregate

end
-- ==== Proof.LibScatterSet.lean ====
/-
  A SCATTER THAT OVERWRITES, READ AT ONE INDEX.

  The host scatter is a left fold over the update indices in row-major order: the step for update index `j` replaces
  the operand's element at `j`'s result index (when that index is inside the operand) by the combiner of the old
  element and the update's element, and does nothing when it is outside. When the combiner returns its second
  argument (the update overwrites), the fold's value at an index `i` is decided by the updates that land on `i`:
  if at least one does, and all of them carry the same value `v`, the result at `i` is `v` — later steps that
  land elsewhere leave `i` alone, and whichever landing step comes last writes `v`.
-/
import Idealize.ShloMosaic.PureOps.ShapeOps
import Idealize.ShloMosaic.Lib.ValueIdx

noncomputable section

namespace Idealize.ShloMosaic.ScatterSet

open Idealize.ShloMosaic

/-- Steps that leave position `i` alone (all those outside `P`) keep the value at `i`. -/
theorem foldl_of_forall_not {ι κ α : Type} (step : (κ → α) → ι → κ → α) (P : ι → Prop) (i : κ)
    (hne : ∀ r n, ¬ P n → step r n i = r i) :
    ∀ (l : List ι) (x : κ → α), (∀ b ∈ l, ¬ P b) → l.foldl step x i = x i
  | [], _, _ => rfl
  | n :: t, x, h => by
    rw [List.foldl_cons, foldl_of_forall_not step P i hne t _ (fun b hb => h b (List.mem_cons_of_mem _ hb))]
    exact hne x n (h n List.mem_cons_self)

/-- If a step in `P` sets position `i` to its value, steps outside `P` leave `i` alone, some step of the list is
    in `P` and all of those carry `v`, the fold ends with `v` at `i`. -/
theorem foldl_apply_of_lands {ι κ α : Type} (step : (κ → α) → ι → κ → α) (P : ι → Prop) (val : ι → α) (i : κ) (v : α)
    (hne : ∀ r n, ¬ P n → step r n i = r i) (heq : ∀ r n, P n → step r n i = val n) :
    ∀ (l : List ι) (x : κ → α), (∃ a ∈ l, P a) → (∀ b ∈ l, P b → val b = v) → l.foldl step x i = v
  | [], _, ⟨_, ha, _⟩, _ => absurd ha List.not_mem_nil
  | n :: t, x, hex, hval => by
    rw [List.foldl_cons]
    by_cases ht : ∃ a ∈ t, P a
    · exact foldl_apply_of_lands step P val i v hne heq t _ ht (fun b hb => hval b (List.mem_cons_of_mem _ hb))
    · have hnot : ∀ b ∈ t, ¬ P b := fun b hb e => ht ⟨b, hb, e⟩
      rw [foldl_of_forall_not step P i hne t _ hnot]
      obtain ⟨a, ha, hpa⟩ := hex
      have han : a = n := by
        rcases List.mem_cons.mp ha with h | h
        · exact h
        · exact absurd hpa (hnot a h)
      subst han
      rw [heq x a hpa]
      exact hval a List.mem_cons_self hpa

variable {s si u : Shape} {w : Nat} {α : Type}

/-- An overwriting scatter at an index some update lands on, all the updates landing there carrying `v`. -/
theorem scatter_apply_of_lands (d : ScatterDims s si u) (f : α → α → α) (hf : ∀ a b, f a b = b)
    (x : s.Idx → α) (idx : IVec si w) (upd : u.Idx → α) (i : s.Idx) (v : α)
    (hex : ∃ j : u.Idx, d.resultIdx? j idx = some i)
    (hval : ∀ j : u.Idx, d.resultIdx? j idx = some i → upd j = v) :
    Host.scatter d f x idx upd i = v := by
  unfold Host.scatter
  refine foldl_apply_of_lands _ (fun n => d.resultIdx? (u.rowMajor.symm n) idx = some i) (fun n => upd (u.rowMajor.symm n)) i v
    ?_ ?_ _ x ?_ ?_
  · intro r n hn
    cases h0 : d.resultIdx? (u.rowMajor.symm n) idx with
    | none => rfl
    | some i0 =>
      show (if i = i0 then f (r i0) (upd (u.rowMajor.symm n)) else r i) = r i
      exact if_neg (fun e => hn (by rw [h0, e]))
  · intro r n hn
    rw [hn]
    show (if i = i then f (r i) (upd (u.rowMajor.symm n)) else r i) = upd (u.rowMajor.symm n)
    rw [if_pos rfl, hf]
  · obtain ⟨j, hj⟩ := hex
    exact ⟨u.rowMajor j, List.mem_finRange _, by show d.resultIdx? (u.rowMajor.symm (u.rowMajor j)) idx = some i; rw [Equiv.symm_apply_apply]; exact hj⟩
  · intro b _ hb
    exact hval _ hb

/-! ## Scatter indices that are all zero

When every entry of the scatter indices is zero, every start is zero, so update index `j` lands at its window
coordinates (if those are inside the operand), whatever the dimension numbers. -/

/-- With all-zero scatter indices every start coordinate is zero. -/
theorem start_of_zero (d : ScatterDims s si u) (idx : IVec si w) (h0 : ∀ k, idx k = 0#w) (j : u.Idx) (a : Fin s.rank) :
    d.start j idx a = 0 := by
  unfold ScatterDims.start
  split
  · rw [h0]; exact BitVec.toInt_zero
  · rfl

/-- With all-zero scatter indices, update `j` lands at the operand index whose coordinates are `j`'s window coordinates. -/
theorem resultIdx_of_zero (d : ScatterDims s si u) (idx : IVec si w) (h0 : ∀ k, idx k = 0#w) (j : u.Idx) (i : s.Idx)
    (hi : ∀ a, (i a).val = d.window j a) : d.resultIdx? j idx = some i := by
  have hs := start_of_zero d idx h0 j
  unfold ScatterDims.resultIdx?
  rw [dif_pos (fun a => by
    rw [hs a]
    have h1 := (i a).isLt
    rw [hi a] at h1
    omega)]
  refine congrArg some (funext fun a => Fin.ext ?_)
  show (d.start j idx a + (d.window j a : Int)).toNat = (i a).val
  rw [hs a, hi a]
  omega

/-- Conversely, an update that lands at `i` has `i`'s coordinates as its window coordinates. -/
theorem window_of_resultIdx (d : ScatterDims s si u) (idx : IVec si w) (h0 : ∀ k, idx k = 0#w) (j : u.Idx) (i : s.Idx)
    (h : d.resultIdx? j idx = some i) (a : Fin s.rank) : (i a).val = d.window j a := by
  have hs := start_of_zero d idx h0 j
  unfold ScatterDims.resultIdx? at h
  split at h
  · have e := Option.some.inj h
    rw [← e]
    show (d.start j idx a + (d.window j a : Int)).toNat = d.window j a
    rw [hs a]
    omega
  · cases h

end Idealize.ShloMosaic.ScatterSet

end
-- ==== Proof.PadValue.lean ====
/-
  The padded second weight and bias of the head, read where they are used.

  The head's one-column weight [128, 1] is written into column 0 of a [128, 128] array of zeros, and its one-entry
  bias into entry (0, 0) of a [1, 128] row of zeros, each by a scatter that overwrites at an all-zero start
  index. Update `t` of the weight lands at (t, 0) and only there, the bias's single update lands at (0, 0): so
  column 0 of the padded weight is the weight, and entry (0, 0) of the padded bias is the bias.
-/
import proofs.«178494_j71322226917532_1_alg».proof.Proof.Gen.KernelIdeal
import proofs.«178494_j71322226917532_1_alg».proof.Proof.LibScatterSet
import Idealize.ShloMosaic.PureOps.Ideal
import Idealize.ShloMosaic.Lib.Pipeline.Value
import Idealize.ShloMosaic.Lib.ValueIdx

noncomputable section

namespace Cert.KernelIdeal.PadValue

open Cert.KernelIdeal Cert.KernelIdeal.Facts₀ Idealize.ShloMosaic Idealize.ShloMosaic.ValueIdx Idealize.ShloMosaic.ScatterSet

/-- Column 0 of the padded weight holds the updates. -/
theorem pad_weight {α : Type} (x : S128x128.Idx → α) (idx : IVec S1 32) (h0 : ∀ k, idx k = 0#32) (upd : S128.Idx → α) (t : Fin 128) :
    Host.scatter scatter_S128x128_S1_S128_0_1_1_0 (fun _ b => b) x idx upd (ix2 t (0 : Fin 128)) = upd (ix1 t) := by
  refine scatter_apply_of_lands scatter_S128x128_S1_S128_0_1_1_0 (fun _ b => b) (fun _ _ => rfl) x idx upd (ix2 t (0 : Fin 128)) (upd (ix1 t))
    ⟨ix1 t, ?_⟩ ?_
  · exact resultIdx_of_zero scatter_S128x128_S1_S128_0_1_1_0 idx h0 (ix1 t) (ix2 t (0 : Fin 128)) (fun a => by
      match a with
      | ⟨0, _⟩ => rfl
      | ⟨1, _⟩ => rfl)
  · intro j hj
    have h := window_of_resultIdx scatter_S128x128_S1_S128_0_1_1_0 idx h0 j (ix2 t (0 : Fin 128)) hj 0
    have hw : scatter_S128x128_S1_S128_0_1_1_0.window j 0 = (j 0).val := rfl
    have e : j = ix1 t := (eq_ix1 j).trans (congrArg ix1 (Fin.ext (by rw [← hw, ← h])))
    rw [e]

/-- Entry (0, 0) of the padded bias holds the update. -/
theorem pad_bias {α : Type} (x : S1x128.Idx → α) (idx : IVec S2 32) (h0 : ∀ k, idx k = 0#32) (upd : S_.Idx → α) :
    Host.scatter scatter_S1x128_S2_S__n_01_01_0 (fun _ b => b) x idx upd (ix2 (0 : Fin 1) (0 : Fin 128)) = upd ix0 := by
  refine scatter_apply_of_lands scatter_S1x128_S2_S__n_01_01_0 (fun _ b => b) (fun _ _ => rfl) x idx upd (ix2 (0 : Fin 1) (0 : Fin 128)) (upd ix0)
    ⟨ix0, ?_⟩ ?_
  · exact resultIdx_of_zero scatter_S1x128_S2_S__n_01_01_0 idx h0 ix0 (ix2 (0 : Fin 1) (0 : Fin 128)) (fun a => by
      match a with
      | ⟨0, _⟩ => rfl
      | ⟨1, _⟩ => rfl)
  · intro j _
    rw [eq_ix0 j]

/-- The two one-entry index vectors joined are all zero. -/
theorem joined_zero (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  obtain ⟨k0, rfl⟩ : ∃ k0 : Fin 2, k = ix1 k0 := ⟨k 0, eq_ix1 k⟩
  match k0 with
  | ⟨0, _⟩ =>
    exact concatenate_pair_apply_left (t := S2) (s₁ := S1) (s₂ := S1) 0 _ _ concatenates_S1_S1_S2_d0 (ix1 (0 : Fin 2)) rfl (ix1 (0 : Fin 1))
      (fun b => by match b with | ⟨0, _⟩ => rfl)
  | ⟨1, _⟩ =>
    exact concatenate_pair_apply_right (t := S2) (s₁ := S1) (s₂ := S1) 0 _ _ concatenates_S1_S1_S2_d0 (ix1 (1 : Fin 2)) rfl rfl (ix1 (0 : Fin 1))
      (fun b hb => by match b with | ⟨0, _⟩ => exact absurd rfl hb) rfl

end Cert.KernelIdeal.PadValue

end
-- ==== Proof.KernelValue.lean ====
/-
  The kernel program's result array, boundary by boundary, is the network of the specification.

  The program's buffers at each boundary are a fold from the launch memory: a host stretch maps a valuation to the
  valuation after its operations, a launch replaces its six arrays by what its write-backs leave and keeps every other
  buffer. Walking the fold backwards from the result:
    the result is column 0 of the third launch's output;
    that output is the per-column head of the second launch's output, the first head weight and bias, and the PADDED
      second weight and bias, whose column 0 and entry (0, 0) are the true ones;
    the second launch's output is the layer of the neighbour mean of the first launch's output and that output;
    the first launch's output is the layer of the neighbour mean of the features and the features;
  every weight, bias and the edge list reach their use unchanged, since no host operation and no launch writes them,
  and a bias passes through a reshape to one row, which `rowOf` undoes.
-/
import proofs.«178494_j71322226917532_1_alg».proof.Proof.Gen.KernelIdeal.Frame
import proofs.«178494_j71322226917532_1_alg».proof.Proof.RegionValue
import proofs.«178494_j71322226917532_1_alg».proof.Proof.Aggregate
import proofs.«178494_j71322226917532_1_alg».proof.Proof.PadValue
import Idealize.ShloMosaic.Lib.StableHlo.Run
import Idealize.ShloMosaic.Lib.Pipeline.Value

set_option maxRecDepth 16384

noncomputable section

open scoped BigOperators

namespace Cert.KernelIdeal.KernelValue

open Cert.KernelIdeal Cert.KernelIdeal.Gen Cert.KernelIdeal.Aggregate Cert.KernelIdeal.BodyValue
open Cert.KernelIdeal.RegionValue Cert.KernelIdeal.PadValue Cert.SageSpec
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg)

/-! ## Reshapes of a bias to one row, undone -/

theorem rowOf_reshape256 (b : S256.Idx → EReal) : rowOf (shapeCast S1x256 b shapeCasts_S256_S1x256) = b := by
  funext q
  show shapeCast S1x256 b shapeCasts_S256_S1x256 (ix2 0 (q 0)) = b q
  rw [shapeCast_addUnit_apply ![256] b shapeCasts_S256_S1x256 (ix2 (0 : Fin 1) (q 0))]
  exact congrArg b (funext fun a => by match a with | ⟨0, _⟩ => rfl)

theorem rowOf_reshape128 (b : S128.Idx → EReal) : rowOf (shapeCast S1x128 b shapeCasts_S128_S1x128) = b := by
  funext q
  show shapeCast S1x128 b shapeCasts_S128_S1x128 (ix2 0 (q 0)) = b q
  rw [shapeCast_addUnit_apply ![128] b shapeCasts_S128_S1x128 (ix2 (0 : Fin 1) (q 0))]
  exact congrArg b (funext fun a => by match a with | ⟨0, _⟩ => rfl)

/-! ## Before the first launch -/

set_option maxHeartbeats 8000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 8000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

set_option maxHeartbeats 8000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

set_option maxHeartbeats 8000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

set_option maxHeartbeats 8000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 8000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

set_option maxHeartbeats 8000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 8000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

set_option maxHeartbeats 8000000 in
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

set_option maxHeartbeats 8000000 in
theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl

set_option maxHeartbeats 8000000 in
theorem W1_v1 (c : Dev nD) : W1 m ρ c (Proc.devRef .tc main_v1) = src (m ((c : Thread nD τ).loc main_arg1)) := by
  show StableHlo.after hostOps0 (W0 m ρ c) (Proc.devRef .tc main_v1) = _
  after_results_simp <;> rfl

set_option maxHeartbeats 8000000 in
theorem W1_v3 (c : Dev nD) : W1 m ρ c (Proc.devRef .tc main_v3) = dst (m ((c : Thread nD τ).loc main_arg1)) := by
  show StableHlo.after hostOps0 (W0 m ρ c) (Proc.devRef .tc main_v3) = _
  after_results_simp <;> rfl

set_option maxHeartbeats 8000000 in
theorem W1_v22 (c : Dev nD) : W1 m ρ c (Proc.devRef .tc main_v22) = mean128 (src (m ((c : Thread nD τ).loc main_arg1))) (dst (m ((c : Thread nD τ).loc main_arg1))) (m ((c : Thread nD τ).loc main_arg0)) := by
  show StableHlo.after hostOps0 (W0 m ρ c) (Proc.devRef .tc main_v22) = _
  after_results_simp <;> rfl

set_option maxHeartbeats 8000000 in
theorem W1_v23 (c : Dev nD) : W1 m ρ c (Proc.devRef .tc main_v23) = shapeCast S1x256 (m ((c : Thread nD τ).loc main_arg3)) shapeCasts_S256_S1x256 := by
  show StableHlo.after hostOps0 (W0 m ρ c) (Proc.devRef .tc main_v23) = _
  after_results_simp <;> rfl

/-- The first layer's result, as a function of the launch memory. -/
def H1 (c : Dev nD) : Mat 50000 256 :=
  combine (n := 50000) (d := 128) (h := 256)
    (mean128 (src (m ((c : Thread nD τ).loc main_arg1))) (dst (m ((c : Thread nD τ).loc main_arg1))) (m ((c : Thread nD τ).loc main_arg0)))
    (m ((c : Thread nD τ).loc main_arg0)) (m ((c : Thread nD τ).loc main_arg2)) (m ((c : Thread nD τ).loc main_arg3)) (m ((c : Thread nD τ).loc main_arg4))

/-! ## After the first launch -/

theorem W2_v24 (c : Dev nD) : W2 m ρ c (Proc.devRef .tc main_v24) = H1 m c := by
  refine (W2_arr m ρ c 5).trans ((final0 (V1 m ρ) c).trans ?_)
  unfold G0 H1
  show combine (W1 m ρ c (Proc.devRef .tc main_v22)) (W1 m ρ c (Proc.devRef .tc main_arg0)) (W1 m ρ c (Proc.devRef .tc main_arg2))
    (rowOf (W1 m ρ c (Proc.devRef .tc main_v23))) (W1 m ρ c (Proc.devRef .tc main_arg4)) = _
  rw [W1_v22, W1_arg0, W1_arg2, W1_v23, W1_arg4, rowOf_reshape256]

/-! ## Buffers the first launch leaves alone -/

theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

/-! ## Before the second launch -/

set_option maxHeartbeats 8000000 in
theorem W3_v43 (c : Dev nD) : W3 m ρ c (Proc.devRef .tc main_v43) = mean256 (src (m ((c : Thread nD τ).loc main_arg1))) (dst (m ((c : Thread nD τ).loc main_arg1))) (H1 m c) := by
  show StableHlo.after hostOps1 (W2 m ρ c) (Proc.devRef .tc main_v43) = _
  after_results_simp
  rw [W2_v1 m ρ c, W2_v3 m ρ c, W2_v24 m ρ c]
  rfl

set_option maxHeartbeats 8000000 in
theorem W3_v44 (c : Dev nD) : W3 m ρ c (Proc.devRef .tc main_v44) = shapeCast S1x256 (m ((c : Thread nD τ).loc main_arg6)) shapeCasts_S256_S1x256 := by
  show StableHlo.after hostOps1 (W2 m ρ c) (Proc.devRef .tc main_v44) = _
  after_results_simp
  rw [W2_arg6 m ρ c]
  rfl

set_option maxHeartbeats 8000000 in
theorem W3_v24 (c : Dev nD) : W3 m ρ c (Proc.devRef .tc main_v24) = H1 m c := by
  show StableHlo.after hostOps1 (W2 m ρ c) (Proc.devRef .tc main_v24) = _
  after_results_simp
  exact W2_v24 m ρ c

set_option maxHeartbeats 8000000 in
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c

set_option maxHeartbeats 8000000 in
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c

set_option maxHeartbeats 8000000 in
theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c

set_option maxHeartbeats 8000000 in
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c

set_option maxHeartbeats 8000000 in
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c

set_option maxHeartbeats 8000000 in
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c

/-- The second layer's result, as a function of the launch memory. -/
def H2 (c : Dev nD) : Mat 50000 256 :=
  combine (n := 50000) (d := 256) (h := 256) (mean256 (src (m ((c : Thread nD τ).loc main_arg1))) (dst (m ((c : Thread nD τ).loc main_arg1))) (H1 m c)) (H1 m c)
    (m ((c : Thread nD τ).loc main_arg5)) (m ((c : Thread nD τ).loc main_arg6)) (m ((c : Thread nD τ).loc main_arg7))

/-! ## After the second launch -/

theorem W4_v45 (c : Dev nD) : W4 m ρ c (Proc.devRef .tc main_v45) = H2 m c := by
  refine (W4_arr m ρ c 5).trans ((final1 (V3 m ρ) c).trans ?_)
  unfold G1 H2
  show combine (W3 m ρ c (Proc.devRef .tc main_v43)) (W3 m ρ c (Proc.devRef .tc main_v24)) (W3 m ρ c (Proc.devRef .tc main_arg5))
    (rowOf (W3 m ρ c (Proc.devRef .tc main_v44))) (W3 m ρ c (Proc.devRef .tc main_arg7)) = _
  rw [W3_v43, W3_v24, W3_arg5, W3_v44, W3_arg7, rowOf_reshape256]

theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

/-! ## Before the third launch -/

set_option maxHeartbeats 8000000 in
theorem W5_v45 (c : Dev nD) : W5 m ρ c (Proc.devRef .tc main_v45) = H2 m c := by
  show StableHlo.after hostOps2 (W4 m ρ c) (Proc.devRef .tc main_v45) = _
  after_results_simp
  exact W4_v45 m ρ c

set_option maxHeartbeats 8000000 in
theorem W5_arg8 (c : Dev nD) : W5 m ρ c (Proc.devRef .tc main_arg8) = m ((c : Thread nD τ).loc main_arg8) := by
  show StableHlo.after hostOps2 (W4 m ρ c) (Proc.devRef .tc main_arg8) = _
  after_results_simp
  exact W4_arg8 m ρ c

set_option maxHeartbeats 8000000 in
theorem W5_v56 (c : Dev nD) : W5 m ρ c (Proc.devRef .tc main_v56) = shapeCast S1x128 (m ((c : Thread nD τ).loc main_arg9)) shapeCasts_S128_S1x128 := by
  show StableHlo.after hostOps2 (W4 m ρ c) (Proc.devRef .tc main_v56) = _
  after_results_simp
  rw [W4_arg9 m ρ c]
  rfl

set_option maxHeartbeats 8000000 in
theorem W5_v49 (c : Dev nD) : W5 m ρ c (Proc.devRef .tc main_v49) = Host.scatter scatter_S128x128_S1_S128_0_1_1_0 (fun _ b => b)
      (broadcastInDim S128x128 ![] bcast_S_S128x128 (constant (F := Ideal) S_ .f32 0x00000000#32))
      (broadcastInDim S1 ![] bcast_S_S1 (constantI S_ 32 0#32))
      (shapeCast S128 (m ((c : Thread nD τ).loc main_arg10)) shapeCasts_S128x1_S128) := by
  show StableHlo.after hostOps2 (W4 m ρ c) (Proc.devRef .tc main_v49) = _
  after_results_simp
  rw [W4_arg10 m ρ c]
  rfl

set_option maxHeartbeats 8000000 in
theorem W5_v55 (c : Dev nD) : W5 m ρ c (Proc.devRef .tc main_v55) = Host.scatter scatter_S1x128_S2_S__n_01_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (shapeCast S_ (m ((c : Thread nD τ).loc main_arg11)) shapeCasts_S1_S_) := by
  show StableHlo.after hostOps2 (W4 m ρ c) (Proc.devRef .tc main_v55) = _
  after_results_simp
  rw [W4_arg11 m ρ c]
  rfl

/-- Column 0 of the padded second weight is the second weight. -/
theorem W5_v49_col (c : Dev nD) (t : Fin 128) :
    W5 m ρ c (Proc.devRef .tc main_v49) (ix2 t (0 : Fin 128)) = (m ((c : Thread nD τ).loc main_arg10)) (ix2 t (0 : Fin 1)) := by
  rw [W5_v49 m ρ c]
  refine (pad_weight _ (broadcastInDim S1 ![] bcast_S_S1 (constantI S_ 32 0#32)) (fun _ => rfl) _ t).trans ?_
  exact shapeCast_apply (m ((c : Thread nD τ).loc main_arg10)) shapeCasts_S128x1_S128 (ix1 t) (ix2 t (0 : Fin 1)) (by
    show ((⟨2, ![128, 1]⟩ : Shape).rowMajor (ix2 t (0 : Fin 1))).val = ((⟨1, ![128]⟩ : Shape).rowMajor (ix1 t)).val
    rw [Shape.rowMajor_val_two, Shape.rowMajor_val_one]
    show t.val * 1 + 0 = t.val
    omega)

/-- Entry (0, 0) of the padded second bias is the second bias. -/
theorem W5_v55_00 (c : Dev nD) :
    W5 m ρ c (Proc.devRef .tc main_v55) (ix2 (0 : Fin 1) (0 : Fin 128)) = (m ((c : Thread nD τ).loc main_arg11)) (ix1 (0 : Fin 1)) := by
  rw [W5_v55 m ρ c]
  refine (pad_bias _ (concatenate S2 0 [⟨S1, broadcastInDim S1 ![] bcast_S_S1 (constantI S_ 32 0#32)⟩,
      ⟨S1, broadcastInDim S1 ![] bcast_S_S1 (constantI S_ 32 0#32)⟩] concatenates_S1_S1_S2_d0) joined_zero _).trans ?_
  exact shapeCast_apply (m ((c : Thread nD τ).loc main_arg11)) shapeCasts_S1_S_ ix0 (ix1 (0 : Fin 1)) (by
    show ((⟨1, ![1]⟩ : Shape).rowMajor (ix1 (0 : Fin 1))).val = ((⟨0, ![]⟩ : Shape).rowMajor ix0).val
    rw [Shape.rowMajor_val_one]
    exact (Shape.rowMajorPi_zero _ _).symm)

/-! ## The result -/

/-- The result array is the network of the launch memory's arguments. -/
theorem result_value (c : Dev nD) : W7 m ρ c (Proc.devRef .tc main_v58)
    = network (n := 50000) (d := 128) (h := 256) (g := 128) (mean128 (src (m ((c : Thread nD τ).loc main_arg1))) (dst (m ((c : Thread nD τ).loc main_arg1)))) (mean256 (src (m ((c : Thread nD τ).loc main_arg1))) (dst (m ((c : Thread nD τ).loc main_arg1))))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e7 : W7 m ρ c (Proc.devRef .tc main_v58)
      = extractStridedSlice S50000x1 ![0, 0] (W6 m ρ c (Proc.devRef .tc main_v57)) slices_S50000x128_S50000x1_0_0 := by
    show StableHlo.after hostOps3 (W6 m ρ c) (Proc.devRef .tc main_v58) = _
    after_results
  have e6 : W6 m ρ c (Proc.devRef .tc main_v57) = G2 (V5 m ρ) c := (W6_arr m ρ c 5).trans (final2 (V5 m ρ) c)
  rw [e7, e6]
  funext i
  obtain ⟨p, rfl⟩ : ∃ p : Fin 50000, i = ix2 p (0 : Fin 1) :=
    ⟨i 0, (eq_ix2 i).trans (congrArg (ix2 (i 0)) (Fin.ext (by have := idx2_lt1 i; show (i 1).val = 0; omega)))⟩
  rw [extractStridedSlice_apply ![0, 0] (G2 (V5 m ρ) c) slices_S50000x128_S50000x1_0_0 (ix2 p (0 : Fin 1)) (ix2 p (0 : Fin 128))
    (fun a => by
      match a with
      | ⟨0, _⟩ => show p.val = 0 + p.val; omega
      | ⟨1, _⟩ => rfl)]
  unfold G2
  rw [head_ix2]
  show headAt (W5 m ρ c (Proc.devRef .tc main_v45)) (W5 m ρ c (Proc.devRef .tc main_arg8)) (rowOf (W5 m ρ c (Proc.devRef .tc main_v56)))
    (W5 m ρ c (Proc.devRef .tc main_v49)) (rowOf (W5 m ρ c (Proc.devRef .tc main_v55))) p (0 : Fin 128) = _
  rw [headAt_of_column _ _ _ _ _ (m ((c : Thread nD τ).loc main_arg10)) (m ((c : Thread nD τ).loc main_arg11)) (0 : Fin 128) (fun t => W5_v49_col m ρ c t)
    ((rowOf_ix1 _ _).trans (W5_v55_00 m ρ c)) p]
  rw [W5_v45, W5_arg8, W5_v56, rowOf_reshape128]
  rfl

end Cert.KernelIdeal.KernelValue

end
-- ==== Proof.ReferenceValue.lean ====
/-
  The reference program's result, stage by stage, is the network of the specification.

  The reference is a straight line of host operations. Read at an index, a matrix product is the sum over the
  contracted axis, a bias row repeated down the rows is the row's entry, a clip is a maximum with zero, and the
  sigmoid is spelt 1 / (1 + e^(−z)) over the word of 1.0, which denotes the real number one: each layer's stage is
  the specification's layer of the stage before it, with the bias added before the second product (the same sum by
  commutativity and associativity), and the last stage is the specification's score of the second layer. The two
  neighbour-mean stretches are the shared aggregation maps, by unfolding names only.
-/
import proofs.«178494_j71322226917532_1_alg».proof.Proof.Gen.ReferenceIdeal.Read
import proofs.«178494_j71322226917532_1_alg».proof.Proof.Spec
import proofs.«178494_j71322226917532_1_alg».proof.Proof.Aggregate
import Idealize.ShloMosaic.PureOps.IdealRules

noncomputable section

open scoped BigOperators

namespace Cert.ReferenceIdeal.RefValue

open Cert.ReferenceIdeal Cert.ReferenceIdeal.Read Idealize.ShloMosaic Idealize.ShloMosaic.ValueIdx Cert.SageSpec
open Cert.KernelIdeal.Aggregate

/-- The word of 1.0 is the real number one. -/
theorem one_word : Ideal.ofBits .f32 0x3F800000#32 = 1 := IdealRules.sign_bit.ideal_onePat .f32

/-- The first neighbour-mean stretch is the shared aggregation map. -/
theorem mean128_ref (x0 : (⟨S50000x128, .f32⟩ : BufTy).Contents (Elt Ideal)) (x1 : (⟨S2x800000, .i32⟩ : BufTy).Contents (Elt Ideal)) :
    val_main_v22 (F := Ideal) x0 x1 = mean128 (src x1) (dst x1) x0 := rfl

/-- The second neighbour-mean stretch is the shared aggregation map of the first layer's result. -/
theorem mean256_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) :
    val_main_v48 (F := Ideal) x0 x1 x2 x3 x4 = mean256 (src x1) (dst x1) (val_main_v29 (F := Ideal) x0 x1 x2 x3 x4) := rfl

/-- The first layer's stage is the specification's layer of the features and their neighbour mean. -/
theorem layer1 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) :
    val_main_v29 (F := Ideal) x0 x1 x2 x3 x4
      = combine (n := 50000) (d := 128) (h := 256) (val_main_v22 (F := Ideal) x0 x1) x0 x2 x3 x4 := by
  funext i
  obtain ⟨p, q, rfl⟩ : ∃ (p : Fin 50000) (q : Fin 256), i = ix2 p q := ⟨i 0, i 1, eq_ix2 i⟩
  rw [combine_ix2, ← combineAt_other_order]
  unfold dotAt
  rw [val_main_v29_apply, val_main_v28_apply, val_main_v26_apply, val_main_v23_apply, val_main_v27_apply, val_main_v25_apply,
    val_main_v24_apply, val_main_call0_v0_apply, val_main_call0_cst_apply]
  have l23 : ∀ k : Fin 128, lidx_main_v23 (ix2 p q) k = ix2 p k := fun k => funext fun a => Fin.ext (by
    match a with
    | ⟨0, _⟩ => rfl
    | ⟨1, _⟩ => rfl)
  have r23 : ∀ k : Fin 128, ridx_main_v23 (ix2 p q) k = ix2 k q := fun k => funext fun a => Fin.ext (by
    match a with
    | ⟨0, _⟩ => rfl
    | ⟨1, _⟩ => rfl)
  have l27 : ∀ k : Fin 128, lidx_main_v27 (ix2 p q) k = ix2 p k := fun k => funext fun a => Fin.ext (by
    match a with
    | ⟨0, _⟩ => rfl
    | ⟨1, _⟩ => rfl)
  have r27 : ∀ k : Fin 128, ridx_main_v27 (ix2 p q) k = ix2 k q := fun k => funext fun a => Fin.ext (by
    match a with
    | ⟨0, _⟩ => rfl
    | ⟨1, _⟩ => rfl)
  have hb : idx_main_v24 (idx_main_v25 (ix2 p q)) = ix1 q := funext fun a => Fin.ext (by
    match a with
    | ⟨0, _⟩ => rfl)
  simp only [l23, r23, l27, r27, hb, Ideal.maximumf_def, Ideal.addf_def, Ideal.ofBits_def, Ideal.ofBits_zero_f32]

/-- The second layer's stage is the specification's layer of the first layer's result and its neighbour mean. -/
theorem layer2 (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v55 (F := Ideal) x0 x1 x2 x3 x4 x5 x6 x7
      = combine (n := 50000) (d := 256) (h := 256) (val_main_v48 (F := Ideal) x0 x1 x2 x3 x4)
          (val_main_v29 (F := Ideal) x0 x1 x2 x3 x4) x5 x6 x7 := by
  funext i
  obtain ⟨p, q, rfl⟩ : ∃ (p : Fin 50000) (q : Fin 256), i = ix2 p q := ⟨i 0, i 1, eq_ix2 i⟩
  rw [combine_ix2, ← combineAt_other_order]
  unfold dotAt
  rw [val_main_v55_apply, val_main_v54_apply, val_main_v52_apply, val_main_v49_apply, val_main_v53_apply, val_main_v51_apply,
    val_main_v50_apply, val_main_call1_v0_apply, val_main_call1_cst_apply]
  have l49 : ∀ k : Fin 256, lidx_main_v49 (ix2 p q) k = ix2 p k := fun k => funext fun a => Fin.ext (by
    match a with
    | ⟨0, _⟩ => rfl
    | ⟨1, _⟩ => rfl)
  have r49 : ∀ k : Fin 256, ridx_main_v49 (ix2 p q) k = ix2 k q := fun k => funext fun a => Fin.ext (by
    match a with
    | ⟨0, _⟩ => rfl
    | ⟨1, _⟩ => rfl)
  have l53 : ∀ k : Fin 256, lidx_main_v53 (ix2 p q) k = ix2 p k := fun k => funext fun a => Fin.ext (by
    match a with
    | ⟨0, _⟩ => rfl
    | ⟨1, _⟩ => rfl)
  have r53 : ∀ k : Fin 256, ridx_main_v53 (ix2 p q) k = ix2 k q := fun k => funext fun a => Fin.ext (by
    match a with
    | ⟨0, _⟩ => rfl
    | ⟨1, _⟩ => rfl)
  have hb : idx_main_v50 (idx_main_v51 (ix2 p q)) = ix1 q := funext fun a => Fin.ext (by
    match a with
    | ⟨0, _⟩ => rfl)
  simp only [l49, r49, l53, r53, hb, Ideal.maximumf_def, Ideal.addf_def, Ideal.ofBits_def, Ideal.ofBits_zero_f32]

/-- The head's hidden stage at node `p`, unit `t`, is the specification's hidden activation of the second layer's result. -/
theorem hidden_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x128, .f32⟩ : BufTy).Contents (Elt Ideal)) (x9 : (⟨S128, .f32⟩ : BufTy).Contents (Elt Ideal)) (p : Fin 50000) (t : Fin 128) :
    val_main_v60 (F := Ideal) x0 x1 x2 x3 x4 x5 x6 x7 x8 x9 (ix2 p t)
      = hiddenAt (n := 50000) (d := 256) (h := 128) (val_main_v55 (F := Ideal) x0 x1 x2 x3 x4 x5 x6 x7) x8 x9 p t := by
  unfold hiddenAt dotAt
  rw [val_main_v60_apply, val_main_v59_apply, val_main_v56_apply, val_main_v58_apply, val_main_v57_apply,
    val_main_call2_v0_apply, val_main_call2_cst_apply]
  have l56 : ∀ k : Fin 256, lidx_main_v56 (ix2 p t) k = ix2 p k := fun k => funext fun a => Fin.ext (by
    match a with
    | ⟨0, _⟩ => rfl
    | ⟨1, _⟩ => rfl)
  have r56 : ∀ k : Fin 256, ridx_main_v56 (ix2 p t) k = ix2 k t := fun k => funext fun a => Fin.ext (by
    match a with
    | ⟨0, _⟩ => rfl
    | ⟨1, _⟩ => rfl)
  have hb1 : idx_main_v57 (idx_main_v58 (ix2 p t)) = ix1 t := funext fun a => Fin.ext (by
    match a with
    | ⟨0, _⟩ => rfl)
  simp only [l56, r56, hb1, Ideal.maximumf_def, Ideal.addf_def, Ideal.ofBits_def, Ideal.ofBits_zero_f32]

/-- The pre-activation score stage at node `p` is the specification's. -/
theorem logit_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (p : Fin 50000) :
    val_main_v64 (F := Ideal) x0 x1 x2 x3 x4 x5 x6 x7 x8 x9 x10 x11 (ix2 p (0 : Fin 1))
      = logitAt (n := 50000) (d := 256) (h := 128) (val_main_v55 (F := Ideal) x0 x1 x2 x3 x4 x5 x6 x7) x8 x9 x10 x11 p := by
  unfold logitAt
  rw [val_main_v64_apply, val_main_v61_apply, val_main_v63_apply, val_main_v62_apply]
  have l61 : ∀ k : Fin 128, lidx_main_v61 (ix2 p (0 : Fin 1)) k = ix2 p k := fun k => funext fun a => Fin.ext (by
    match a with
    | ⟨0, _⟩ => rfl
    | ⟨1, _⟩ => rfl)
  have r61 : ∀ k : Fin 128, ridx_main_v61 (ix2 p (0 : Fin 1)) k = ix2 k (0 : Fin 1) := fun k => funext fun a => Fin.ext (by
    match a with
    | ⟨0, _⟩ => rfl
    | ⟨1, _⟩ => rfl)
  have hb2 : idx_main_v62 (idx_main_v63 (ix2 p (0 : Fin 1))) = ix1 (0 : Fin 1) := funext fun a => Fin.ext (by
    match a with
    | ⟨0, _⟩ => rfl)
  rw [hb2, Ideal.addf_def]
  refine congrArg (fun s => s + x11 (ix1 (0 : Fin 1))) (Finset.sum_congr rfl fun k _ => ?_)
  rw [l61 k, r61 k, hidden_ref]

/-- The sigmoid the reference spells out is the logistic function. -/
theorem sigmoid_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  unfold Ideal.logistic
  simp only [Ideal.hostDivf_def, Ideal.addf_def, Ideal.ofBits_def, one_word, Ideal.hostUnary_exp_def, Ideal.hostNegf_def, Ideal.negf_def]

/-- The last stage is the specification's score of the second layer's result. -/
theorem head_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v70 (F := Ideal) x0 x1 x2 x3 x4 x5 x6 x7 x8 x9 x10 x11
      = score (n := 50000) (d := 256) (h := 128) (val_main_v55 (F := Ideal) x0 x1 x2 x3 x4 x5 x6 x7) x8 x9 x10 x11 := by
  funext i
  obtain ⟨p, rfl⟩ : ∃ p : Fin 50000, i = ix2 p (0 : Fin 1) :=
    ⟨i 0, (eq_ix2 i).trans (congrArg (ix2 (i 0)) (Fin.ext (by have := idx2_lt1 i; show (i 1).val = 0; omega)))⟩
  rw [score_ix2]
  unfold scoreAt
  rw [← logit_ref]
  rw [val_main_v70_apply, val_main_v69_apply, val_main_cst_11_apply, val_main_v68_apply, val_main_v67_apply, val_main_cst_10_apply,
    val_main_v66_apply, val_main_v65_apply]
  exact sigmoid_spelt _

/-- The reference's result is the network over the shared aggregation maps. -/
theorem result_eq (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v70 (F := Ideal) x0 x1 x2 x3 x4 x5 x6 x7 x8 x9 x10 x11
      = network (n := 50000) (d := 128) (h := 256) (g := 128) (mean128 (src x1) (dst x1)) (mean256 (src x1) (dst x1))
          x0 x2 x3 x4 x5 x6 x7 x8 x9 x10 x11 := by
  rw [head_ref, layer2, mean256_ref, layer1, mean128_ref]
  rfl

end Cert.ReferenceIdeal.RefValue

end
-- ==== Proof.lean ====
/-
  A two-layer mean-aggregation graph convolution with a scoring head: a kernel program of three grid launches
  against a plain reference, equal as extended reals.

  Both programs compute, for 50000 nodes and an edge list,
      h1 = max(mean(x) · W1l + x · W1r + b1l, 0),   h2 = max(mean(h1) · W2l + h1 · W2r + b2l, 0),
      score = logistic( max(h2 · Wh1 + bh1, 0) · Wh2 + bh2 ),
  where `mean` is the mean over in-neighbours (rows gathered by source, summed into target rows, divided by the
  in-degree clipped at one). The kernel program does each layer in a launch over 25 bands of 2000 rows, adds the bias
  after the second product where the reference adds it before (the same sum: addition of extended reals is
  commutative and associative), narrows operands to sixteen bits (the identity on extended reals), and computes
  the head with the second weight and bias padded with zeros to 128 columns, keeping column 0. The neighbour mean is
  the same host operations in both programs and is never opened.

  The kernel's result is read off its run boundary by boundary (KernelValue), the reference's off its generated run
  stage by stage (ReferenceValue); both are the specification's `network` of the arguments (Spec). No finiteness is
  used: the precondition is not opened. The idealization rewrote no operation, so its conjunct is `True`.
-/
import proofs.«178494_j71322226917532_1_alg».proof.Defs
import proofs.«178494_j71322226917532_1_alg».proof.Proof.Gen.Kernel
import proofs.«178494_j71322226917532_1_alg».proof.Proof.Gen.Kernel.Skeleton
import proofs.«178494_j71322226917532_1_alg».proof.Proof.Gen.Kernel.Launch
import proofs.«178494_j71322226917532_1_alg».proof.Proof.Gen.Kernel.Points
import proofs.«178494_j71322226917532_1_alg».proof.Proof.Gen.Kernel.Frame
import proofs.«178494_j71322226917532_1_alg».proof.Proof.Gen.KernelIdeal
import proofs.«178494_j71322226917532_1_alg».proof.Proof.Gen.KernelIdeal.Skeleton
import proofs.«178494_j71322226917532_1_alg».proof.Proof.Gen.KernelIdeal.Launch
import proofs.«178494_j71322226917532_1_alg».proof.Proof.Gen.KernelIdeal.Points
import proofs.«178494_j71322226917532_1_alg».proof.Proof.Gen.KernelIdeal.Frame
import proofs.«178494_j71322226917532_1_alg».proof.Proof.Gen.ReferenceIdeal
import proofs.«178494_j71322226917532_1_alg».proof.Proof.Gen.ReferenceIdeal.Run
import proofs.«178494_j71322226917532_1_alg».proof.Proof.Gen.ReferenceIdeal.Read
import proofs.«178494_j71322226917532_1_alg».proof.Proof.Gen.Pre_finite_inputs
import proofs.«178494_j71322226917532_1_alg».proof.Proof.KernelResultRun
import proofs.«178494_j71322226917532_1_alg».proof.Proof.KernelValue
import proofs.«178494_j71322226917532_1_alg».proof.Proof.ReferenceValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of the arguments as their result. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result_value m ρ c), (h c).2⟩)
      (Cert.KernelIdeal.ResultRun.run m ρ), ?_⟩
  refine (θ_run Cert.ReferenceIdeal.defs _ _).mono (fun r h c => ⟨?_, (h c).2⟩)
    (Cert.ReferenceIdeal.Value.run (F := Ideal) m' ρ')
  refine ((h c).1.trans ((Cert.ReferenceIdeal.Read.val_main_v70_eq m' c).trans
    (Cert.ReferenceIdeal.RefValue.result_eq _ _ _ _ _ _ _ _ _ _ _ _))).trans ?_
  obtain ⟨a0, a1, a2, a3, a4, a5, a6, a7, a8, a9, a10, a11⟩ := hagree c
  rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
